-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x50 : S_.BroadcastsInDim S640000x50 (![] : Fin 0 → Fin S640000x50.rank)
  reducesTo_S640000x50_S_d0_1 : S640000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S40000x128 .f32) (main_arg1 : IVec S2x640000 32) (main_arg2 : FVec F S640000 .f32) (main_arg3 : FVec F S640000x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x50 .f32 := Host.absf main_arg3
  let main_cst_2 : FVec F S_ .f32 := constant S_ .f32 0x7F800000#32
  let main_v10 : FVec F S640000x50 .f32 := broadcastInDim S640000x50 ![] bcast_S_S640000x50 main_cst_2
  let main_v11 : IVec S640000x50 1 := cmpf .olt main_v9 main_v10
  let main_c_3 : IVec S_ 1 := constantI S_ 1 1#1
  let main_v12 : IVec S_ 1 := (fun x v => Host.reduce IntOp.andi x v reducesTo_S640000x50_S_d0_1 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg5 main_arg6 main_arg7 main_arg8 main_arg9 main_arg10 main_arg11 main_arg12 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S1x640000 : Shape := ⟨2, ![1, 640000]⟩
abbrev S640000x1 : Shape := ⟨2, ![640000, 1]⟩
abbrev S640000x128 : Shape := ⟨2, ![640000, 128]⟩
abbrev S6400x50 : Shape := ⟨2, ![6400, 50]⟩
abbrev S6400x1 : Shape := ⟨2, ![6400, 1]⟩
abbrev S6400x128 : Shape := ⟨2, ![6400, 128]⟩
abbrev S1x128 : Shape := ⟨2, ![1, 128]⟩
abbrev S4000x128 : Shape := ⟨2, ![4000, 128]⟩
abbrev S_ : Shape := ⟨0, ![]⟩

abbrev nBuf : Space → Nat
  | .hbm => 37
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S640000x1, .f32⟩
  | .hbm, ⟨18, _⟩ => ⟨S640000x128, .bf16⟩
  | .hbm, ⟨19, _⟩ => ⟨S40000x128, .bf16⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .bf16⟩
  | .hbm, ⟨29, _⟩ => ⟨S640000x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S40000x128, .f32⟩
  | .local _ .vmem, ⟨0, _⟩ => ⟨S6400x50, .f32⟩
  | .local _ .vmem, ⟨1, _⟩ => ⟨S6400x50, .f32⟩
  | .local _ .vmem, ⟨2, _⟩ => ⟨S6400x1, .f32⟩
  | .local _ .vmem, ⟨3, _⟩ => ⟨S6400x1, .f32⟩
  | .local _ .vmem, ⟨4, _⟩ => ⟨S50x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6400x128, .bf16⟩
  | .local _ .vmem, ⟨9, _⟩ => ⟨S6400x128, .bf16⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S4000x128, .f32⟩
  | .local _ .vmem, ⟨22, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000_S640000x1 : S640000.ShapeCasts S640000x1
  inb_S6400x50_S6400x50_0_0 : ∀ a, (![0, 0] : Fin 2 → Nat) a + S6400x50.size a ≤ S6400x50.size a
  h_S6400x50 : 0 < S6400x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  packedbf16_S6400x128_S6400x128_0_0 : (Rect.unit (s := S6400x128) ![0, 0] S6400x128.size inb_S6400x128_S6400x128_0_0).PackedRows (EltTy.packing .bf16)
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S4000x128_S4000x128 : S4000x128.ShapeCasts S4000x128
  broadcasts_S1x128_S4000x128 : S1x128.Broadcasts S4000x128
  dot_S6400x50_S50x128_S6400x128_1_0_0_1_n_n_wf : DotDims.WF S6400x50 S50x128 S6400x128 [1] [0] [0] [1] [] []
  dot_S6400x128_S128x128_S6400x128_1_0_0_1_n_n_wf : DotDims.WF S6400x128 S128x128 S6400x128 [1] [0] [0] [1] [] []
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x50.size a ≤ S640000x50.size a
  hwx0_0 : ∀ i : grid0.Coords, EltTy.bits .f32 = 32 ∨ (Rect.block (s := S640000x50) S6400x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S640000x1.size a
  hwx0_1 : ∀ i : grid0.Coords, EltTy.bits .f32 = 32 ∨ (Rect.block (s := S640000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S640000x128.size a
  hwx0_6 : ∀ i : grid0.Coords, EltTy.bits .bf16 = 32 ∨ (Rect.block (s := S640000x128) S6400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .bf16 = 32 ∨ (Rect.block (s := S40000x128) S4000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S40000x128.size a
  hwx2_5 : ∀ i : grid2.Coords, EltTy.bits .f32 = 32 ∨ (Rect.block (s := S40000x128) S4000x128.size (cc2_transform_5 i) (hinb2_5 i)).WholeWords (EltTy.packing .f32)

variable [Facts₀]

def dot_S6400x50_S50x128_S6400x128_1_0_0_1_n_n : DotDims S6400x50 S50x128 S6400x128 where
  lhsContracting := [1]
  rhsContracting := [0]
  lhsNonContracting := [0]
  rhsNonContracting := [1]
  lhsBatch := []
  rhsBatch := []
  wf := dot_S6400x50_S50x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg3) S6400x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S1x640000 : Shape := ⟨2, ![1, 640000]⟩
abbrev S_ : Shape := ⟨0, ![]⟩
abbrev S640000x128 : Shape := ⟨2, ![640000, 128]⟩
abbrev S1x128 : Shape := ⟨2, ![1, 128]⟩
abbrev S640000x1 : Shape := ⟨2, ![640000, 1]⟩

abbrev nBuf : Space → Nat
  | .hbm => 63
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S640000, .f32⟩
  | .hbm, ⟨20, _⟩ => ⟨S640000, .f32⟩
  | .hbm, ⟨21, _⟩ => ⟨S_, .f32⟩
  | .hbm, ⟨22, _⟩ => ⟨S640000, .f32⟩
  | .hbm, ⟨23, _⟩ => ⟨S640000, .f32⟩
  | .hbm, ⟨24, _⟩ => ⟨S_, .f32⟩
  | .hbm, ⟨25, _⟩ => ⟨S640000, .f32⟩
  | .hbm, ⟨26, _⟩ => ⟨S640000, .f32⟩
  | .hbm, ⟨27, _⟩ => ⟨S640000x128, .f32⟩
  | .hbm, ⟨28, _⟩ => ⟨S1x128, .f32⟩
  | .hbm, ⟨29, _⟩ => ⟨S640000x128, .f32⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S1x128, .f32⟩
  | .hbm, ⟨34, _⟩ => ⟨S640000x128, .f32⟩
  | .hbm, ⟨35, _⟩ => ⟨S640000x128, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S40000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S1x128, .f32⟩
  | .hbm, ⟨61, _⟩ => ⟨S40000x128, .f32⟩
  | .hbm, ⟨62, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  dot_S640000x50_S50x128_S640000x128_1_0_0_1_n_n_wf : DotDims.WF S640000x50 S50x128 S640000x128 [1] [0] [0] [1] [] []
  dot_S640000x128_S128x128_S640000x128_1_0_0_1_n_n_wf : DotDims.WF S640000x128 S128x128 S640000x128 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S640000x50_S50x128_S640000x128_1_0_0_1_n_n : DotDims S640000x50 S50x128 S640000x128 where
  lhsContracting := [1]
  rhsContracting := [0]
  lhsNonContracting := [0]
  rhsNonContracting := [1]
  lhsBatch := []
  rhsBatch := []
  wf := dot_S640000x50_S50x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Run.lean ====
/-
  The idealized kernel's run with its result array named.

  The program is five segments: a stretch of host operations (the two rows of the edge list sliced out and flattened,
  the edge lengths reshaped into a column), the filter-network region, the node-projection region, a second stretch of
  host operations (the gather, the product with the filter rows, the scatter-add into zeros) and the tail region. The
  contents of every buffer at each boundary between segments form a fold from the launch memory: a host stretch
  applies its operations, a region replaces its output array by what its write-backs leave and keeps everything else.
  Every weakly fair execution from the launch memory terminates, and the final memory holds, at every buffer that
  outlives the regions, the last boundary's contents. Read at the argument arrays this is the frame; read at the
  result buffer it names the result: the last boundary's contents there, which the value proof then opens.
-/
import proofs.«128581_j64819646431979_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from the launch memory terminates without a fault; the result buffer
    ends at the last boundary's contents and every argument array as launched. -/
theorem run_named : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.KValue

end
-- ==== Proof.Boundary.lean ====
/-
  The contents of the buffers each region reads, traced back to the launch memory.

  Before the first region the host slices the two rows of the edge list out and flattens them, and reshapes the edge
  lengths into a column; it writes no argument array. So the filter-network region finds the radial features, its
  weights and its biases as launched, and the column of lengths holding, at row `e`, the length of edge `e`. A region
  changes its own output array only, so the projection region finds the node features and its weights as launched.
  The host operations between the projection and the tail read the two regions' outputs and the two flattened rows
  of the edge list, and write the aggregated messages; the tail finds its weights and biases as launched.
-/
import proofs.«128581_j64819646431979_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## Entering the filter-network region -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg6 (c : Dev nD) : V1 m ρ c main_arg6 = m ((c : Thread nD τ).loc main_arg6) := by
  show StableHlo.after hostOps0 (W0 m ρ c) (Proc.devRef .tc main_arg6) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_arg8 (c : Dev nD) : V1 m ρ c main_arg8 = m ((c : Thread nD τ).loc main_arg8) := by
  show StableHlo.after hostOps0 (W0 m ρ c) (Proc.devRef .tc main_arg8) = _
  after_results <;> rfl

/-- The column of edge lengths is the reshaped vector of lengths. -/
theorem V1_v4 (c : Dev nD) : V1 m ρ c main_v4
    = shapeCast S640000x1 (m ((c : Thread nD τ).loc main_arg2)) shapeCasts_S640000_S640000x1 := by
  show StableHlo.after hostOps0 (W0 m ρ c) (Proc.devRef .tc main_v4) = _
  after_results
  rfl

/-- Row `e` of the column of edge lengths is the length of edge `e`. -/
theorem V1_v4_apply (c : Dev nD) (e : Fin 640000) :
    V1 m ρ c main_v4 (ix2 e (0 : Fin 1)) = m ((c : Thread nD τ).loc main_arg2) (ix1 e) := by
  rw [V1_v4]
  exact shapeCast_apply _ shapeCasts_S640000_S640000x1 (ix2 e (0 : Fin 1)) (ix1 e) (by
    rw [Shape.rowMajor_val_two, Shape.rowMajor_val_one]
    show e.val = e.val * 1 + 0
    omega)

/-! ## Entering the projection region -/

theorem V2_arg0 (c : Dev nD) : V2 m ρ c main_arg0 = m ((c : Thread nD τ).loc main_arg0) :=
  (W2_of_ne m ρ c main_arg0 (by decide)).trans (V1_arg0 m ρ c)
theorem V2_arg8 (c : Dev nD) : V2 m ρ c main_arg8 = m ((c : Thread nD τ).loc main_arg8) :=
  (W2_of_ne m ρ c main_arg8 (by decide)).trans (V1_arg8 m ρ c)

/-! ## After the projection region: what the second host stretch reads -/

/-- The flattened first row of the edge list (the source nodes). -/
theorem W3_v1 (c : Dev nD) : W3 m ρ c (Proc.devRef .tc main_v1)
    = shapeCast S640000 (extractStridedSlice S1x640000 ![0, 0] (m ((c : Thread nD τ).loc main_arg1)) slices_S2x640000_S1x640000_0_0)
        shapeCasts_S1x640000_S640000 :=
  (W3_of_ne m ρ c main_v1 (by decide)).trans ((W2_of_ne m ρ c main_v1 (by decide)).trans (by
    show StableHlo.after hostOps0 (W0 m ρ c) (Proc.devRef .tc main_v1) = _
    after_results
    rfl))
/-- The flattened second row of the edge list (the destination nodes). -/
theorem W3_v3 (c : Dev nD) : W3 m ρ c (Proc.devRef .tc main_v3)
    = shapeCast S640000 (extractStridedSlice S1x640000 ![1, 0] (m ((c : Thread nD τ).loc main_arg1)) slices_S2x640000_S1x640000_1_0)
        shapeCasts_S1x640000_S640000 :=
  (W3_of_ne m ρ c main_v3 (by decide)).trans ((W2_of_ne m ρ c main_v3 (by decide)).trans (by
    show StableHlo.after hostOps0 (W0 m ρ c) (Proc.devRef .tc main_v3) = _
    after_results
    rfl))
/-- The filter-network region's output survives the projection region. -/
theorem W3_v5 (c : Dev nD) : W3 m ρ c (Proc.devRef .tc main_v5) = (dat0 (V1 m ρ) c).arrAt 6 cfg0.N :=
  (W3_of_ne m ρ c main_v5 (by decide)).trans (W2_arr m ρ c 6)
/-- The projection region's output. -/
theorem W3_v6 (c : Dev nD) : W3 m ρ c (Proc.devRef .tc main_v6) = (dat1 (V2 m ρ) c).arrAt 2 cfg1.N :=
  W3_arr m ρ c 2

/-! ## Entering the tail region -/

theorem V4_arg9 (c : Dev nD) : V4 m ρ c main_arg9 = m ((c : Thread nD τ).loc main_arg9) :=
  ((W5_arr m ρ c 1).trans (((dat2 (V4 m ρ) c).arrAt_in 1 rfl _).trans (A_eq2 (V4 m ρ) c 1))).symm.trans (W5_main_arg9 m ρ c)
theorem V4_arg10 (c : Dev nD) : V4 m ρ c main_arg10 = m ((c : Thread nD τ).loc main_arg10) :=
  ((W5_arr m ρ c 2).trans (((dat2 (V4 m ρ) c).arrAt_in 2 rfl _).trans (A_eq2 (V4 m ρ) c 2))).symm.trans (W5_main_arg10 m ρ c)
theorem V4_arg11 (c : Dev nD) : V4 m ρ c main_arg11 = m ((c : Thread nD τ).loc main_arg11) :=
  ((W5_arr m ρ c 3).trans (((dat2 (V4 m ρ) c).arrAt_in 3 rfl _).trans (A_eq2 (V4 m ρ) c 3))).symm.trans (W5_main_arg11 m ρ c)
theorem V4_arg12 (c : Dev nD) : V4 m ρ c main_arg12 = m ((c : Thread nD τ).loc main_arg12) :=
  ((W5_arr m ρ c 4).trans (((dat2 (V4 m ρ) c).arrAt_in 4 rfl _).trans (A_eq2 (V4 m ρ) c 4))).symm.trans (W5_main_arg12 m ρ c)

/-- The result buffer after the last region is the tail region's output array. -/
theorem W5_v20 (c : Dev nD) : W5 m ρ c (Proc.devRef .tc main_v20) = (dat2 (V4 m ρ) c).arrAt 5 cfg2.N :=
  W5_arr m ρ c 5

end Cert.KernelIdeal.KValue

end
-- ==== Proof.Spec.lean ====
/-
  The mathematics both programs compute, stated row by row on the extended reals.

  A continuous-filter convolution layer has three dense pieces and one irregular piece.
    * The filter network turns the radial features of one edge (a row of 50 numbers) into 128 filter weights by two
      dense layers with a tanh between them, and scales them by the cosine cutoff ½ · (cos(d · κ) + 1) of the edge's
      length d, κ the single-precision value nearest π/10.
    * The node projection multiplies one node's 128 features by a weight matrix, with no bias.
    * The tail turns one node's aggregated message into its output by two dense layers with a tanh between them.
    * Between them, each edge takes the projected row of its source node, multiplies it entry by entry by its filter
      row, and the products are summed into the row of the edge's destination node. That piece is the same sequence of
      operations in both programs and is never opened here.

  Every dense piece is a function of ONE row of its input (and of the whole weight arrays). That is what makes a tiling
  of the rows invisible: a block of rows is processed exactly as the rows would be one at a time. The definitions below
  therefore take the row as a function of the contraction coordinate, and the arrays are assembled from them at the end.
-/
import Idealize.ShloMosaic.Lib.ValueIdx
import Idealize.ShloMosaic.PureOps.Ideal

noncomputable section

namespace Cert.Conv

open Idealize.ShloMosaic Idealize.ShloMosaic.ValueIdx

/-- Entry `c` of a row times a `[K, N]` weight matrix: `∑ k, row k · w[k, c]`. -/
def prodRow {K N : ℕ} (row : Fin K → EReal) (w : (⟨2, ![K, N]⟩ : Shape).Idx → EReal) (c : Fin N) : EReal :=
  ∑ k : Fin K, row k * w (ix2 k c)

/-- Entry `c` of a dense layer on one row: `row · w + b`. -/
def denseRow {K N : ℕ} (row : Fin K → EReal) (w : (⟨2, ![K, N]⟩ : Shape).Idx → EReal)
    (b : (⟨1, ![N]⟩ : Shape).Idx → EReal) (c : Fin N) : EReal :=
  prodRow row w c + b (ix1 c)

/-- Entry `c` of two dense layers with a tanh between them, on one row: `tanh(row · w₁ + b₁) · w₂ + b₂`. -/
def mlpRow {K H N : ℕ} (row : Fin K → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (c : Fin N) : EReal :=
  denseRow (fun h => Ideal.tanh (denseRow row w1 b1 h)) w2 b2 c

/-- The cosine cutoff of an edge of length `d`: `½ · (cos(d · κ) + 1)`, with `κ`, `1` and `½` the values of their
    single-precision words (`κ` is the word nearest π/10; both programs carry the same word). -/
def cutoff (d : EReal) : EReal :=
  Ideal.ofBits .f32 0x3F000000#32 * (Ideal.cos (d * Ideal.ofBits .f32 0x3EA0D97C#32) + Ideal.ofBits .f32 0x3F800000#32)

/-- Entry `c` of one edge's filter row: the two-layer network on the edge's radial features, scaled by the cutoff of
    the edge's length. -/
def filterRow {K H N : ℕ} (row : Fin K → EReal) (d : EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (c : Fin N) : EReal :=
  mlpRow row w1 b1 w2 b2 c * cutoff d

/-! ## The three arrays, each row from its own input row -/

/-- The filter array: row `e` from row `e` of the radial features and the length of edge `e`. -/
def filterArr {E K H N : ℕ} (ea : (⟨2, ![E, K]⟩ : Shape).Idx → EReal) (len : (⟨1, ![E]⟩ : Shape).Idx → EReal)
    (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) :
    (⟨2, ![E, N]⟩ : Shape).Idx → EReal :=
  fun i => filterRow (fun k => ea (ix2 (i 0) k)) (len (ix1 (i 0))) w1 b1 w2 b2 (i 1)

/-- The projected node features: row `n` is row `n` of `x` times `w`. -/
def projArr {M K N : ℕ} (x : (⟨2, ![M, K]⟩ : Shape).Idx → EReal) (w : (⟨2, ![K, N]⟩ : Shape).Idx → EReal) :
    (⟨2, ![M, N]⟩ : Shape).Idx → EReal :=
  fun i => prodRow (fun k => x (ix2 (i 0) k)) w (i 1)

/-- The tail: row `n` from row `n` of the aggregated messages. -/
def tailArr {M K H N : ℕ} (a : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal :=
  fun i => mlpRow (fun k => a (ix2 (i 0) k)) w1 b1 w2 b2 (i 1)

end Cert.Conv

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Rows.lean ====
/-
  Reading a dense layer at one entry, and comparing two rows.

  A kernel body computes a dense layer on a block as whole-block operations: a matrix product into a zero accumulator,
  plus the bias vector viewed as a one-row matrix and repeated down the rows. Read at entry `(p, c)` on the extended
  reals that is `(∑ k, l[p, k] · w[k, c]) + b[c]`: a function of row `p` of the block alone (`dense_entry`). The edge
  network's cutoff reaches the block as a one-column matrix repeated across the columns; at `(p, c)` it is the column's
  entry `p` (`column_entry`).

  The row-wise functions depend on their row only through its entries, on the weights only as whole arrays: two rows
  with equal entries give equal results (`…_congr`). This is how a row of a block is identified with the row of the
  whole array it was cut from.
-/
import Idealize.ShloMosaic.Lib.ValueIdx
import Idealize.ShloMosaic.Lib.ValueLayout
import Idealize.ShloMosaic.Lib.Pipeline.Value
import Idealize.ShloMosaic.PureOps.Ideal.Laws
import proofs.«128581_j64819646431979_1_alg».proof.Proof.Spec
import proofs.«128581_j64819646431979_1_alg».proof.Proof.LibPlainProduct

noncomputable section

namespace Cert.Conv

open Idealize.ShloMosaic Idealize.ShloMosaic.ValueIdx

/-- The zero offsets of a rank-one rectangle, however they are spelt. -/
theorem hz1 : (![0] : Fin 1 → Nat) = fun _ => 0 := funext fun a => by fin_cases a; rfl
/-- The zero offsets of a rank-two rectangle, however they are spelt. -/
theorem hz2 : (![0, 0] : Fin 2 → Nat) = fun _ => 0 := funext fun a => by fin_cases a <;> rfl

/-! ## Equal rows give equal results -/

theorem prodRow_congr {K N : ℕ} {row row' : Fin K → EReal} {w w' : (⟨2, ![K, N]⟩ : Shape).Idx → EReal} {c c' : Fin N}
    (hrow : ∀ k, row k = row' k) (hw : w = w') (hc : c = c') : prodRow row w c = prodRow row' w' c' := by
  subst hw hc; exact congrArg (fun r => prodRow r w c) (funext hrow)

theorem denseRow_congr {K N : ℕ} {row row' : Fin K → EReal} {w w' : (⟨2, ![K, N]⟩ : Shape).Idx → EReal}
    {b b' : (⟨1, ![N]⟩ : Shape).Idx → EReal} {c c' : Fin N}
    (hrow : ∀ k, row k = row' k) (hw : w = w') (hb : b = b') (hc : c = c') : denseRow row w b c = denseRow row' w' b' c' := by
  subst hw hb hc; exact congrArg (fun r => denseRow r w b c) (funext hrow)

theorem mlpRow_congr {K H N : ℕ} {row row' : Fin K → EReal} {w1 w1' : (⟨2, ![K, H]⟩ : Shape).Idx → EReal}
    {b1 b1' : (⟨1, ![H]⟩ : Shape).Idx → EReal} {w2 w2' : (⟨2, ![H, N]⟩ : Shape).Idx → EReal}
    {b2 b2' : (⟨1, ![N]⟩ : Shape).Idx → EReal} {c c' : Fin N}
    (hrow : ∀ k, row k = row' k) (hw1 : w1 = w1') (hb1 : b1 = b1') (hw2 : w2 = w2') (hb2 : b2 = b2') (hc : c = c') :
    mlpRow row w1 b1 w2 b2 c = mlpRow row' w1' b1' w2' b2' c' := by
  subst hw1 hb1 hw2 hb2 hc; exact congrArg (fun r => mlpRow r w1 b1 w2 b2 c) (funext hrow)

theorem filterRow_congr {K H N : ℕ} {row row' : Fin K → EReal} {d d' : EReal} {w1 w1' : (⟨2, ![K, H]⟩ : Shape).Idx → EReal}
    {b1 b1' : (⟨1, ![H]⟩ : Shape).Idx → EReal} {w2 w2' : (⟨2, ![H, N]⟩ : Shape).Idx → EReal}
    {b2 b2' : (⟨1, ![N]⟩ : Shape).Idx → EReal} {c c' : Fin N}
    (hrow : ∀ k, row k = row' k) (hd : d = d') (hw1 : w1 = w1') (hb1 : b1 = b1') (hw2 : w2 = w2') (hb2 : b2 = b2')
    (hc : c = c') : filterRow row d w1 b1 w2 b2 c = filterRow row' d' w1' b1' w2' b2' c' := by
  subst hd hw1 hb1 hw2 hb2 hc; exact congrArg (fun r => filterRow r d w1 b1 w2 b2 c) (funext hrow)

/-! ## Layout operations of a block read at an entry -/

variable {α : Type}

/-- A bias vector viewed as a one-row matrix and repeated down `a` rows reads, at `(p, c)`, the vector at `c`. -/
theorem bias_entry {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A one-column matrix repeated across `b` columns reads, at `(p, c)`, the column at `p`. -/
theorem column_entry {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A dense layer on a block, read at an entry -/

/-- A product of a block `l` with weights `r` into the zero accumulator, plus the bias `b` repeated down the rows, is at
    entry `(p, c)` the dense layer on row `p` of `l`: `(∑ k, l[p, k] · r[k, c]) + b[c]`. The dimension numbers enter through
    the six facts of a plain product (one contracted axis of extent `K`; operands read at `(p, k)` and `(k, c)`). -/
theorem dense_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (c : Fin N) :
    addf (F := Ideal) (FloatOps.matmul D none l r (constant (F := Ideal) ⟨2, ![M, N]⟩ .f32 0x00000000#32))
        (broadcastTo ⟨2, ![M, N]⟩ (shapeCast ⟨2, ![1, N]⟩ b h1) h2) (ix2 p c)
      = denseRow (fun k => l (ix2 p k)) r b c := by
  unfold denseRow prodRow
  show FloatOps.matmul D none l r (constant (F := Ideal) ⟨2, ![M, N]⟩ .f32 0x00000000#32) (ix2 p c)
      + broadcastTo ⟨2, ![M, N]⟩ (shapeCast ⟨2, ![1, N]⟩ b h1) h2 (ix2 p c) = _
  rw [PlainProduct.matmul_zero_entry D hr hs hl0 hl1 hr0 hr1 l r p c, bias_entry b h1 h2 p c]

end Cert.Conv

end
-- ==== Proof.Dims.lean ====
/-
  The three matrix products of the kernel bodies, as index arithmetic.

  Each body multiplies a block of rows by a whole weight matrix: `[6400, 50] · [50, 128]` and `[6400, 128] · [128, 128]` in
  the filter network, `[4000, 128] · [128, 128]` in the projection and twice in the tail. All three contract the left
  operand's second axis with the right operand's first and have no batch axes, so at output entry `(p, c)` and
  contraction coordinate `k` the left operand is read at `(p, k)` and the right at `(k, c)`. The four coordinate facts
  per product below say exactly that; they are what reading a product at an entry as `∑ k, l[p, k] · r[k, c]` needs.
-/
import proofs.«128581_j64819646431979_1_alg».proof.Proof.Gen.KernelIdeal

noncomputable section

namespace Cert.KernelIdeal.KValue

open Cert.KernelIdeal Cert.KernelIdeal.Gen Idealize.ShloMosaic

/-! ## `[6400, 50] · [50, 128]` -/

theorem dot_S6400x50_S50x128_S6400x128_1_0_0_1_n_n_l0 (j : S6400x128.Idx) (q : dot_S6400x50_S50x128_S6400x128_1_0_0_1_n_n.contr.Idx) : (dot_S6400x50_S50x128_S6400x128_1_0_0_1_n_n.lhsIdx j q (0 : Fin 2)).val = (j (0 : Fin 2)).val := by
  unfold DotDims.lhsIdx
  rw [dif_neg (show ¬(0 : Fin S6400x128.rank) ∈ dot_S6400x50_S50x128_S6400x128_1_0_0_1_n_n.lhsBatch by decide), dif_pos (show (0 : Fin S6400x128.rank) ∈ dot_S6400x50_S50x128_S6400x128_1_0_0_1_n_n.lhsNonContracting by decide)]
  rfl
theorem dot_S6400x50_S50x128_S6400x128_1_0_0_1_n_n_l1 (j : S6400x128.Idx) (q : dot_S6400x50_S50x128_S6400x128_1_0_0_1_n_n.contr.Idx) : (dot_S6400x50_S50x128_S6400x128_1_0_0_1_n_n.lhsIdx j q (1 : Fin 2)).val = (q ⟨0, by decide⟩).val :=
  dot_S6400x50_S50x128_S6400x128_1_0_0_1_n_n.lhsIdx_val_of_single rfl j q
theorem dot_S6400x50_S50x128_S6400x128_1_0_0_1_n_n_r0 (j : S6400x128.Idx) (q : dot_S6400x50_S50x128_S6400x128_1_0_0_1_n_n.contr.Idx) : (dot_S6400x50_S50x128_S6400x128_1_0_0_1_n_n.rhsIdx j q (0 : Fin 2)).val = (q ⟨0, by decide⟩).val :=
  dot_S6400x50_S50x128_S6400x128_1_0_0_1_n_n.rhsIdx_val_of_single rfl j q
theorem dot_S6400x50_S50x128_S6400x128_1_0_0_1_n_n_r1 (j : S6400x128.Idx) (q : dot_S6400x50_S50x128_S6400x128_1_0_0_1_n_n.contr.Idx) : (dot_S6400x50_S50x128_S6400x128_1_0_0_1_n_n.rhsIdx j q (1 : Fin 2)).val = (j (1 : Fin 2)).val := by
  unfold DotDims.rhsIdx
  rw [dif_neg (show ¬(1 : Fin S50x128.rank) ∈ dot_S6400x50_S50x128_S6400x128_1_0_0_1_n_n.rhsBatch by decide), dif_pos (show (1 : Fin S50x128.rank) ∈ dot_S6400x50_S50x128_S6400x128_1_0_0_1_n_n.rhsNonContracting by decide)]
  rfl

/-! ## `[6400, 128] · [128, 128]` -/

theorem dot_S6400x128_S128x128_S6400x128_1_0_0_1_n_n_l0 (j : S6400x128.Idx) (q : dot_S6400x128_S128x128_S6400x128_1_0_0_1_n_n.contr.Idx) : (dot_S6400x128_S128x128_S6400x128_1_0_0_1_n_n.lhsIdx j q (0 : Fin 2)).val = (j (0 : Fin 2)).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem dot_S6400x128_S128x128_S6400x128_1_0_0_1_n_n_l1 (j : S6400x128.Idx) (q : dot_S6400x128_S128x128_S6400x128_1_0_0_1_n_n.contr.Idx) : (dot_S6400x128_S128x128_S6400x128_1_0_0_1_n_n.lhsIdx j q (1 : Fin 2)).val = (q ⟨0, by decide⟩).val :=
  dot_S6400x128_S128x128_S6400x128_1_0_0_1_n_n.lhsIdx_val_of_single rfl j q
theorem dot_S6400x128_S128x128_S6400x128_1_0_0_1_n_n_r0 (j : S6400x128.Idx) (q : dot_S6400x128_S128x128_S6400x128_1_0_0_1_n_n.contr.Idx) : (dot_S6400x128_S128x128_S6400x128_1_0_0_1_n_n.rhsIdx j q (0 : Fin 2)).val = (q ⟨0, by decide⟩).val :=
  dot_S6400x128_S128x128_S6400x128_1_0_0_1_n_n.rhsIdx_val_of_single rfl j q
theorem dot_S6400x128_S128x128_S6400x128_1_0_0_1_n_n_r1 (j : S6400x128.Idx) (q : dot_S6400x128_S128x128_S6400x128_1_0_0_1_n_n.contr.Idx) : (dot_S6400x128_S128x128_S6400x128_1_0_0_1_n_n.rhsIdx j q (1 : Fin 2)).val = (j (1 : Fin 2)).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-! ## `[4000, 128] · [128, 128]` -/

theorem dot_S4000x128_S128x128_S4000x128_1_0_0_1_n_n_l0 (j : S4000x128.Idx) (q : dot_S4000x128_S128x128_S4000x128_1_0_0_1_n_n.contr.Idx) : (dot_S4000x128_S128x128_S4000x128_1_0_0_1_n_n.lhsIdx j q (0 : Fin 2)).val = (j (0 : Fin 2)).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dot_S4000x128_S128x128_S4000x128_1_0_0_1_n_n_l1 (j : S4000x128.Idx) (q : dot_S4000x128_S128x128_S4000x128_1_0_0_1_n_n.contr.Idx) : (dot_S4000x128_S128x128_S4000x128_1_0_0_1_n_n.lhsIdx j q (1 : Fin 2)).val = (q ⟨0, by decide⟩).val :=
  dot_S4000x128_S128x128_S4000x128_1_0_0_1_n_n.lhsIdx_val_of_single rfl j q
theorem dot_S4000x128_S128x128_S4000x128_1_0_0_1_n_n_r0 (j : S4000x128.Idx) (q : dot_S4000x128_S128x128_S4000x128_1_0_0_1_n_n.contr.Idx) : (dot_S4000x128_S128x128_S4000x128_1_0_0_1_n_n.rhsIdx j q (0 : Fin 2)).val = (q ⟨0, by decide⟩).val :=
  dot_S4000x128_S128x128_S4000x128_1_0_0_1_n_n.rhsIdx_val_of_single rfl j q
theorem dot_S4000x128_S128x128_S4000x128_1_0_0_1_n_n_r1 (j : S4000x128.Idx) (q : dot_S4000x128_S128x128_S4000x128_1_0_0_1_n_n.contr.Idx) : (dot_S4000x128_S128x128_S4000x128_1_0_0_1_n_n.rhsIdx j q (1 : Fin 2)).val = (j (1 : Fin 2)).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

end Cert.KernelIdeal.KValue

end
-- ==== Proof.Proj.lean ====
/-
  The node-projection region: its output array is `x · W`, row by row.

  The region runs over ten grid points. Point `t` stages rows `4000·t … 4000·t + 3999` of the node features and the whole
  weight matrix, the body multiplies the block by the weights (into a zero accumulator; the changes of float format are
  the identity on the extended reals), and the block of products is written back to the same rows of the output. Entry
  `(p, c)` of the body's result is `∑ k, block[p, k] · W[k, c]`, a function of row `p` of the block alone, and row `p` of
  block `t` is row `4000·t + p` of the array: so what point `t` writes back is block `t` of the one array whose row `n` is
  row `n` of `x` times `W`. The ten blocks tile the rows, hence the output array ends holding that array, whatever the
  buffers held when the region was entered (`V`).
-/
import proofs.«128581_j64819646431979_1_alg».proof.Proof.Gen.KernelIdeal.Frame
import Idealize.ShloMosaic.Lib.Pipeline.Value
import proofs.«128581_j64819646431979_1_alg».proof.Proof.Spec
import proofs.«128581_j64819646431979_1_alg».proof.Proof.LibPlainProduct
import proofs.«128581_j64819646431979_1_alg».proof.Proof.Rows
import proofs.«128581_j64819646431979_1_alg».proof.Proof.Dims

noncomputable section

namespace Cert.KernelIdeal.KValue

open Cert.KernelIdeal Cert.KernelIdeal.Gen Idealize.ShloMosaic Idealize.ShloMosaic.TcCoe Idealize.SL.Sem
open Idealize.ShloMosaic.ValueIdx Cert.Conv
open Idealize.ShloMosaic.Pipeline (Dat)

/-- Entry `(p, c)` of the body's result on a block `x0` and the weights `x2` is row `p` of the block times the weights. -/
theorem proj_entry (x0 : Vec Ideal S4000x128 .f32) (x2 : Vec Ideal S128x128 .f32) (p : Fin 4000) (c : Fin 128) :
    k1_pay1 x0 x2 (ix2 p c) = prodRow (fun k => x0 (ix2 p k)) x2 c := by
  unfold k1_pay1 prodRow
  exact PlainProduct.matmul_zero_entry dot_S4000x128_S128x128_S4000x128_1_0_0_1_n_n rfl rfl dot_S4000x128_S128x128_S4000x128_1_0_0_1_n_n_l0 dot_S4000x128_S128x128_S4000x128_1_0_0_1_n_n_l1 dot_S4000x128_S128x128_S4000x128_1_0_0_1_n_n_r0 dot_S4000x128_S128x128_S4000x128_1_0_0_1_n_n_r1
    (truncf .bf16 x0 bitsLt_bf16_f32) (truncf .bf16 x2 bitsLt_bf16_f32) p c

/-- The block index maps over the ten points: the row blocks of the input and of the output move together, one block
    per point; the weights' one block never moves. -/
theorem proj_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the array `x · W`. -/
theorem proj_flushed (c : Dev nD) (t : Fin cfg1.N) :
    (dat1 V c).flushed 2 t = ((cfg1.win 2).blk t).view.read (Elt Ideal)
      (projArr (M := 40000) (K := 128) (N := 128) (V c main_arg0) (V c main_arg8)) := by
  show (cfg1.win 2).cut (grid1.coords t) ((dat1 V c).after 2 t) = _
  rw [after1_2]
  unfold out1_2
  rw [View.canon_unit_zero hz2]
  simp only [View.ld_unit_zero (S := S4000x128) hz2, View.ld_unit_zero (S := S128x128) hz2]
  obtain ⟨e00, e01, e10, e11, e20, e21⟩ := proj_index t
  funext j
  show k1_pay1 (iblk1 V c 0 t) (iblk1 V c 1 t) j
    = projArr (M := 40000) (K := 128) (N := 128) (V c main_arg0) (V c main_arg8) (((cfg1.win 2).blk t).view.emb j)
  obtain ⟨p, q, rfl⟩ : ∃ (p : Fin 4000) (q : Fin 128), j = ix2 p q := ⟨j 0, j 1, eq_ix2 j⟩
  refine (proj_entry (iblk1 V c 0 t) (iblk1 V c 1 t) p q).trans ?_
  unfold projArr
  refine prodRow_congr (fun k => ?_) ?_ ?_
  · -- row `p` of the staged block is row `4000·t + p` of the node features
    show V c main_arg0 (((cfg1.win 0).blk t).view.emb (ix2 p k)) = V c main_arg0 _
    refine congrArg (V c main_arg0) (funext fun a => Fin.ext ?_)
    match a with
    | ⟨0, _⟩ =>
      show win1_0.index t (0 : Fin 2) * 4000 + 1 * p.val = win1_2.index t (0 : Fin 2) * 4000 + 1 * p.val
      omega
    | ⟨1, _⟩ =>
      show win1_0.index t (1 : Fin 2) * 128 + 1 * k.val = k.val
      omega
  · -- the weights' block is the whole weight matrix
    funext y
    show V c main_arg8 (((cfg1.win 1).blk t).view.emb y) = V c main_arg8 y
    refine congrArg (V c main_arg8) (funext fun a => Fin.ext ?_)
    match a with
    | ⟨0, _⟩ =>
      show win1_1.index t (0 : Fin 2) * 128 + 1 * (y 0).val = (y 0).val
      omega
    | ⟨1, _⟩ =>
      show win1_1.index t (1 : Fin 2) * 128 + 1 * (y 1).val = (y 1).val
      omega
  · -- the output block spans all 128 columns
    apply Fin.ext
    show q.val = win1_2.index t (1 : Fin 2) * 128 + 1 * q.val
    omega

/-- An index of the output array lies in point `t`'s block iff each coordinate lies in the block's range on its axis. -/
theorem proj_mem_blk (t : Fin cfg1.N) (i : S40000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v6).slice (win1_2.rect t)).set ↔ _
  rw [View.set_slice_whole, Rect.mem_set_unit]
  exact Iff.rfl

/-- The ten blocks tile the rows: row `n` lies in the block of point `n / 4000`. -/
theorem proj_cover (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  have hN : grid1.N = 10 := N_1
  have ht : (i 0).val / 4000 < cfg1.N := by show (i 0).val / 4000 < grid1.N; omega
  obtain ⟨-, -, -, -, e20, e21⟩ := proj_index ⟨(i 0).val / 4000, ht⟩
  refine ⟨⟨(i 0).val / 4000, ht⟩, flush1_2 _, ?_⟩
  rw [proj_mem_blk]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e20]; show (i 0).val / 4000 * 4000 ≤ (i 0).val ∧ (i 0).val < (i 0).val / 4000 * 4000 + 4000
    omega
  | ⟨1, _⟩ =>
    show win1_2.index ⟨(i 0).val / 4000, ht⟩ (1 : Fin 2) * 128 ≤ (i 1).val
      ∧ (i 1).val < win1_2.index ⟨(i 0).val / 4000, ht⟩ (1 : Fin 2) * 128 + 128
    rw [e21]; omega

/-- After the region its output array is `x · W` of the node features and the weights as the region found them. -/
theorem proj_final (c : Dev nD) :
    (dat1 V c).arrAt 2 cfg1.N = projArr (M := 40000) (K := 128) (N := 128) (V c main_arg0) (V c main_arg8) :=
  (dat1 V c).arrAt_eq_of_cover 2 _ (fun t _ => proj_flushed V c t) proj_cover

end Cert.KernelIdeal.KValue

end
-- ==== Proof.Tail.lean ====
/-
  The tail region: its output array is `tanh(agg · W_out + b_out) · W_lin + b_lin`, row by row.

  The region runs over ten grid points. Point `t` stages rows `4000·t … 4000·t + 3999` of the aggregated messages and the
  whole of the two weight matrices and the two bias vectors; the body applies a dense layer, a tanh and a second dense
  layer to the block (products into zero accumulators, each bias viewed as a one-row matrix repeated down the rows;
  the changes of float format are the identity on the extended reals) and the result is written back to the same rows
  of the output. Entry `(p, c)` of the body's result is the two-layer network on row `p` of the block, and row `p` of block
  `t` is row `4000·t + p` of the array: what point `t` writes back is block `t` of the one array whose row `n` is the network
  on row `n` of the aggregated messages. The ten blocks tile the rows, hence the output array ends holding that array.
-/
import proofs.«128581_j64819646431979_1_alg».proof.Proof.Gen.KernelIdeal.Frame
import Idealize.ShloMosaic.Lib.Pipeline.Value
import proofs.«128581_j64819646431979_1_alg».proof.Proof.Spec
import proofs.«128581_j64819646431979_1_alg».proof.Proof.Rows
import proofs.«128581_j64819646431979_1_alg».proof.Proof.Dims

noncomputable section

namespace Cert.KernelIdeal.KValue

open Cert.KernelIdeal Cert.KernelIdeal.Gen Idealize.ShloMosaic Idealize.ShloMosaic.TcCoe Idealize.SL.Sem
open Idealize.ShloMosaic.ValueIdx Cert.Conv
open Idealize.ShloMosaic.Pipeline (Dat)

/-- Entry `(p, c)` of the body's result is the two-layer network on row `p` of the block `x0`. -/
theorem tail_entry (x0 : Vec Ideal S4000x128 .f32) (x3 : Vec Ideal S128x128 .f32) (x6 : Vec Ideal S128 .f32)
    (x12 : Vec Ideal S128x128 .f32) (x15 : Vec Ideal S128 .f32) (p : Fin 4000) (c : Fin 128) :
    k2_pay1 x0 x3 x6 x12 x15 (ix2 p c) = mlpRow (fun k => x0 (ix2 p k)) x3 x6 x12 x15 c := by
  unfold k2_pay1 mlpRow
  refine (dense_entry dot_S4000x128_S128x128_S4000x128_1_0_0_1_n_n rfl rfl dot_S4000x128_S128x128_S4000x128_1_0_0_1_n_n_l0 dot_S4000x128_S128x128_S4000x128_1_0_0_1_n_n_l1 dot_S4000x128_S128x128_S4000x128_1_0_0_1_n_n_r0 dot_S4000x128_S128x128_S4000x128_1_0_0_1_n_n_r1 _ (truncf .bf16 x12 bitsLt_bf16_f32) x15
    shapeCasts_S128_S1x128 broadcasts_S1x128_S4000x128 p c).trans ?_
  refine denseRow_congr (fun k => ?_) rfl rfl rfl
  -- the hidden activation at `(p, k)`: the tanh of the first dense layer there
  refine congrArg Ideal.tanh ((dense_entry dot_S4000x128_S128x128_S4000x128_1_0_0_1_n_n rfl rfl dot_S4000x128_S128x128_S4000x128_1_0_0_1_n_n_l0 dot_S4000x128_S128x128_S4000x128_1_0_0_1_n_n_l1 dot_S4000x128_S128x128_S4000x128_1_0_0_1_n_n_r0 dot_S4000x128_S128x128_S4000x128_1_0_0_1_n_n_r1 _ (truncf .bf16 x3 bitsLt_bf16_f32) x6
    shapeCasts_S128_S1x128 broadcasts_S1x128_S4000x128 p k).trans ?_)
  refine denseRow_congr (fun j => ?_) rfl rfl rfl
  show shapeCast S4000x128 x0 shapeCasts_S4000x128_S4000x128 (ix2 p j) = x0 (ix2 p j)
  rw [shapeCast_self]

/-- The block index maps over the ten points: the row blocks of the input and of the output move together, one block
    per point; the weights' and biases' blocks never move. -/
theorem tail_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point `t` writes back is block `t` of the array of the two-layer network on the aggregated messages. -/
theorem tail_flushed (c : Dev nD) (t : Fin cfg2.N) :
    (dat2 V c).flushed 5 t = ((cfg2.win 5).blk t).view.read (Elt Ideal)
      (tailArr (M := 40000) (K := 128) (H := 128) (N := 128) (V c main_v19) (V c main_arg9) (V c main_arg10) (V c main_arg11) (V c main_arg12)) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128x128) hz2, View.ld_unit_zero (S := S128) hz1]
  obtain ⟨e00, e01, e10, e11, e20, e30, e31, e40, e50, e51⟩ := tail_index t
  funext j
  show k2_pay1 (iblk2 V c 0 t) (iblk2 V c 1 t) (iblk2 V c 2 t) (iblk2 V c 3 t) (iblk2 V c 4 t) j
    = tailArr (M := 40000) (K := 128) (H := 128) (N := 128) (V c main_v19) (V c main_arg9) (V c main_arg10) (V c main_arg11) (V c main_arg12)
        (((cfg2.win 5).blk t).view.emb j)
  obtain ⟨p, q, rfl⟩ : ∃ (p : Fin 4000) (q : Fin 128), j = ix2 p q := ⟨j 0, j 1, eq_ix2 j⟩
  refine (tail_entry (iblk2 V c 0 t) (iblk2 V c 1 t) (iblk2 V c 2 t) (iblk2 V c 3 t) (iblk2 V c 4 t) p q).trans ?_
  unfold tailArr
  refine mlpRow_congr (fun k => ?_) ?_ ?_ ?_ ?_ ?_
  · -- row `p` of the staged block is row `4000·t + p` of the aggregated messages
    show V c main_v19 (((cfg2.win 0).blk t).view.emb (ix2 p k)) = V c main_v19 _
    refine congrArg (V c main_v19) (funext fun a => Fin.ext ?_)
    match a with
    | ⟨0, _⟩ =>
      show win2_0.index t (0 : Fin 2) * 4000 + 1 * p.val = win2_5.index t (0 : Fin 2) * 4000 + 1 * p.val
      omega
    | ⟨1, _⟩ =>
      show win2_0.index t (1 : Fin 2) * 128 + 1 * k.val = k.val
      omega
  · -- each weight matrix's and bias vector's block is the whole array
    funext y
    show V c main_arg9 (((cfg2.win 1).blk t).view.emb y) = V c main_arg9 y
    refine congrArg (V c main_arg9) (funext fun a => Fin.ext ?_)
    match a with
    | ⟨0, _⟩ =>
      show win2_1.index t (0 : Fin 2) * 128 + 1 * (y 0).val = (y 0).val
      omega
    | ⟨1, _⟩ =>
      show win2_1.index t (1 : Fin 2) * 128 + 1 * (y 1).val = (y 1).val
      omega
  · funext y
    show V c main_arg10 (((cfg2.win 2).blk t).view.emb y) = V c main_arg10 y
    refine congrArg (V c main_arg10) (funext fun a => Fin.ext ?_)
    match a with
    | ⟨0, _⟩ =>
      show win2_2.index t (0 : Fin 1) * 128 + 1 * (y 0).val = (y 0).val
      omega
  · funext y
    show V c main_arg11 (((cfg2.win 3).blk t).view.emb y) = V c main_arg11 y
    refine congrArg (V c main_arg11) (funext fun a => Fin.ext ?_)
    match a with
    | ⟨0, _⟩ =>
      show win2_3.index t (0 : Fin 2) * 128 + 1 * (y 0).val = (y 0).val
      omega
    | ⟨1, _⟩ =>
      show win2_3.index t (1 : Fin 2) * 128 + 1 * (y 1).val = (y 1).val
      omega
  · funext y
    show V c main_arg12 (((cfg2.win 4).blk t).view.emb y) = V c main_arg12 y
    refine congrArg (V c main_arg12) (funext fun a => Fin.ext ?_)
    match a with
    | ⟨0, _⟩ =>
      show win2_4.index t (0 : Fin 1) * 128 + 1 * (y 0).val = (y 0).val
      omega
  · -- the output block spans all 128 columns
    apply Fin.ext
    show q.val = win2_5.index t (1 : Fin 2) * 128 + 1 * q.val
    omega

/-- An index of the output array lies in point `t`'s block iff each coordinate lies in the block's range on its axis. -/
theorem tail_mem_blk (t : Fin cfg2.N) (i : S40000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v20).slice (win2_5.rect t)).set ↔ _
  rw [View.set_slice_whole, Rect.mem_set_unit]
  exact Iff.rfl

/-- The ten blocks tile the rows: row `n` lies in the block of point `n / 4000`. -/
theorem tail_cover (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  have hN : grid2.N = 10 := N_2
  have ht : (i 0).val / 4000 < cfg2.N := by show (i 0).val / 4000 < grid2.N; omega
  obtain ⟨-, -, -, -, -, -, -, -, e50, e51⟩ := tail_index ⟨(i 0).val / 4000, ht⟩
  refine ⟨⟨(i 0).val / 4000, ht⟩, flush2_5 _, ?_⟩
  rw [tail_mem_blk]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [e50]; show (i 0).val / 4000 * 4000 ≤ (i 0).val ∧ (i 0).val < (i 0).val / 4000 * 4000 + 4000
    omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [e51]; omega

/-- After the region its output array is the two-layer network, row by row, on the aggregated messages, the weights
    and the biases as the region found them. -/
theorem tail_final (c : Dev nD) :
    (dat2 V c).arrAt 5 cfg2.N = tailArr (M := 40000) (K := 128) (H := 128) (N := 128) (V c main_v19) (V c main_arg9)
      (V c main_arg10) (V c main_arg11) (V c main_arg12) :=
  (dat2 V c).arrAt_eq_of_cover 5 _ (fun t _ => tail_flushed V c t) tail_cover

end Cert.KernelIdeal.KValue

end
-- ==== Proof.Filter.lean ====
/-
  The filter-network region: its output array is the filter array, row by row.

  The region runs over a hundred grid points. Point `t` stages rows `6400·t … 6400·t + 6399` of the radial features and of
  the column of edge lengths, and the whole of the two weight matrices and the two bias vectors. The body applies a
  dense layer, a tanh and a second dense layer to the block of features (products into zero accumulators, each bias
  viewed as a one-row matrix repeated down the rows), computes the cutoff `½ · (cos(d · κ) + 1)` of the column of lengths
  entry by entry, repeats that column across the 128 columns and multiplies; the changes of float format are the
  identity on the extended reals. Entry `(p, c)` of the result is therefore the filter row of edge `p` of the block at `c`:
  a function of row `p` of the features block and entry `p` of the lengths block alone. Row `p` of block `t` is row
  `6400·t + p` of the arrays, so what point `t` writes back is block `t` of the one filter array; the hundred blocks tile the
  rows, hence the output array ends holding the filter array of the arrays as the region found them.
-/
import proofs.«128581_j64819646431979_1_alg».proof.Proof.Gen.KernelIdeal.Frame
import Idealize.ShloMosaic.Lib.Pipeline.Value
import proofs.«128581_j64819646431979_1_alg».proof.Proof.Spec
import proofs.«128581_j64819646431979_1_alg».proof.Proof.Rows
import proofs.«128581_j64819646431979_1_alg».proof.Proof.Dims

noncomputable section

namespace Cert.KernelIdeal.KValue

open Cert.KernelIdeal Cert.KernelIdeal.Gen Idealize.ShloMosaic Idealize.ShloMosaic.TcCoe Idealize.SL.Sem
open Idealize.ShloMosaic.ValueIdx Cert.Conv
open Idealize.ShloMosaic.Pipeline (Dat)

/-- A block times a one-column matrix repeated across the columns, at `(p, c)`: the block's entry times the column's
    entry `p`. -/
theorem mul_column_entry (u : FVec Ideal S6400x128 .f32) (col : FVec Ideal S6400x1 .f32) (p : Fin 6400) (c : Fin 128) :
    truncf .bf16 (mulf u (broadcastTo S6400x128 col broadcasts_S6400x1_S6400x128)) bitsLt_bf16_f32 (ix2 p c)
      = u (ix2 p c) * col (ix2 p (0 : Fin 1)) := by
  show u (ix2 p c) * broadcastTo S6400x128 col broadcasts_S6400x1_S6400x128 (ix2 p c) = _
  rw [column_entry col broadcasts_S6400x1_S6400x128 p c]

/-- The body's cutoff column at entry `p` is the cutoff of the length there. -/
theorem cutoff_entry (x18 : Vec Ideal S6400x1 .f32) (p : Fin 6400) :
    mulf (F := Ideal) (broadcast S6400x1 (Scalar.ofBits (F := Ideal) .f32 0x3F000000#32))
        (addf (cos (mulf (shapeCast S6400x1 x18 shapeCasts_S6400x1_S6400x1) (broadcast S6400x1 (Scalar.ofBits (F := Ideal) .f32 0x3EA0D97C#32))))
          (broadcast S6400x1 (Scalar.ofBits (F := Ideal) .f32 0x3F800000#32))) (ix2 p (0 : Fin 1))
      = cutoff (x18 (ix2 p (0 : Fin 1))) := by
  rw [shapeCast_self]; rfl

/-- Entry `(p, c)` of the body's result is the filter row of row `p` of the features block `x0` and entry `p` of the
    lengths block `x18`. -/
theorem filter_entry (x0 : Vec Ideal S6400x50 .f32) (x2 : Vec Ideal S50x128 .f32) (x5 : Vec Ideal S128 .f32)
    (x11 : Vec Ideal S128x128 .f32) (x14 : Vec Ideal S128 .f32) (x18 : Vec Ideal S6400x1 .f32) (p : Fin 6400) (c : Fin 128) :
    k0_pay1 x0 x2 x5 x11 x14 x18 (ix2 p c)
      = filterRow (fun k => x0 (ix2 p k)) (x18 (ix2 p (0 : Fin 1))) x2 x5 x11 x14 c := by
  unfold k0_pay1 filterRow
  refine (mul_column_entry _ _ p c).trans ?_
  refine congrArg₂ (fun a b : EReal => a * b) ?_ (cutoff_entry x18 p)
  unfold mlpRow
  refine (dense_entry dot_S6400x128_S128x128_S6400x128_1_0_0_1_n_n rfl rfl dot_S6400x128_S128x128_S6400x128_1_0_0_1_n_n_l0 dot_S6400x128_S128x128_S6400x128_1_0_0_1_n_n_l1 dot_S6400x128_S128x128_S6400x128_1_0_0_1_n_n_r0 dot_S6400x128_S128x128_S6400x128_1_0_0_1_n_n_r1 _ (truncf .bf16 x11 bitsLt_bf16_f32) x14
    shapeCasts_S128_S1x128 broadcasts_S1x128_S6400x128 p c).trans ?_
  refine denseRow_congr (fun k => ?_) rfl rfl rfl
  -- the hidden activation at `(p, k)`: the tanh of the first dense layer there
  exact congrArg Ideal.tanh (dense_entry dot_S6400x50_S50x128_S6400x128_1_0_0_1_n_n rfl rfl dot_S6400x50_S50x128_S6400x128_1_0_0_1_n_n_l0 dot_S6400x50_S50x128_S6400x128_1_0_0_1_n_n_l1 dot_S6400x50_S50x128_S6400x128_1_0_0_1_n_n_r0 dot_S6400x50_S50x128_S6400x128_1_0_0_1_n_n_r1 (truncf .bf16 x0 bitsLt_bf16_f32)
    (truncf .bf16 x2 bitsLt_bf16_f32) x5 shapeCasts_S128_S1x128 broadcasts_S1x128_S6400x128 p k)

/-- The block index maps over the hundred points: the row blocks of the features, of the lengths and of the output
    move together, one block per point; the weights' and biases' blocks never move. -/
theorem filter_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The edge lengths as the region finds them: the column's one entry per edge. -/
def lengths (c : Dev nD) : (⟨1, ![640000]⟩ : Shape).Idx → EReal := fun e => V c main_v4 (ix2 (e 0) (0 : Fin 1))

/-- What point `t` writes back is block `t` of the filter array. -/
theorem filter_flushed (c : Dev nD) (t : Fin cfg0.N) :
    (dat0 V c).flushed 6 t = ((cfg0.win 6).blk t).view.read (Elt Ideal)
      (filterArr (E := 640000) (K := 50) (H := 128) (N := 128) (V c main_arg3) (lengths V c) (V c main_arg4) (V c main_arg5)
        (V c main_arg6) (V c main_arg7)) := by
  show (cfg0.win 6).cut (grid0.coords t) ((dat0 V c).after 6 t) = _
  rw [after0_6]
  unfold out0_6
  rw [View.canon_unit_zero hz2]
  simp only [View.ld_unit_zero (S := S6400x50) hz2, View.ld_unit_zero (S := S6400x1) hz2, View.ld_unit_zero (S := S50x128) hz2,
    View.ld_unit_zero (S := S128x128) hz2, View.ld_unit_zero (S := S128) hz1]
  obtain ⟨e00, e01, e10, e11, e20, e21, e30, e40, e41, e50, e60, e61⟩ := filter_index t
  funext j
  show k0_pay1 (iblk0 V c 0 t) (iblk0 V c 2 t) (iblk0 V c 3 t) (iblk0 V c 4 t) (iblk0 V c 5 t) (iblk0 V c 1 t) j
    = filterArr (E := 640000) (K := 50) (H := 128) (N := 128) (V c main_arg3) (lengths V c) (V c main_arg4) (V c main_arg5)
        (V c main_arg6) (V c main_arg7) (((cfg0.win 6).blk t).view.emb j)
  obtain ⟨p, q, rfl⟩ : ∃ (p : Fin 6400) (q : Fin 128), j = ix2 p q := ⟨j 0, j 1, eq_ix2 j⟩
  refine (filter_entry (iblk0 V c 0 t) (iblk0 V c 2 t) (iblk0 V c 3 t) (iblk0 V c 4 t) (iblk0 V c 5 t) (iblk0 V c 1 t) p q).trans ?_
  unfold filterArr lengths
  refine filterRow_congr (fun k => ?_) ?_ ?_ ?_ ?_ ?_ ?_
  · -- row `p` of the staged features block is row `6400·t + p` of the radial features
    show V c main_arg3 (((cfg0.win 0).blk t).view.emb (ix2 p k)) = V c main_arg3 _
    refine congrArg (V c main_arg3) (funext fun a => Fin.ext ?_)
    match a with
    | ⟨0, _⟩ =>
      show win0_0.index t (0 : Fin 2) * 6400 + 1 * p.val = win0_6.index t (0 : Fin 2) * 6400 + 1 * p.val
      omega
    | ⟨1, _⟩ =>
      show win0_0.index t (1 : Fin 2) * 50 + 1 * k.val = k.val
      omega
  · -- entry `p` of the staged lengths block is the length of edge `6400·t + p`
    show V c main_v4 (((cfg0.win 1).blk t).view.emb (ix2 p (0 : Fin 1))) = V c main_v4 _
    refine congrArg (V c main_v4) (funext fun a => Fin.ext ?_)
    match a with
    | ⟨0, _⟩ =>
      show win0_1.index t (0 : Fin 2) * 6400 + 1 * p.val = win0_6.index t (0 : Fin 2) * 6400 + 1 * p.val
      omega
    | ⟨1, _⟩ =>
      show win0_1.index t (1 : Fin 2) * 1 + 1 * 0 = 0
      omega
  -- each weight matrix's and bias vector's block is the whole array
  · funext y
    show V c main_arg4 (((cfg0.win 2).blk t).view.emb y) = V c main_arg4 y
    refine congrArg (V c main_arg4) (funext fun a => Fin.ext ?_)
    match a with
    | ⟨0, _⟩ =>
      show win0_2.index t (0 : Fin 2) * 50 + 1 * (y 0).val = (y 0).val
      omega
    | ⟨1, _⟩ =>
      show win0_2.index t (1 : Fin 2) * 128 + 1 * (y 1).val = (y 1).val
      omega
  · funext y
    show V c main_arg5 (((cfg0.win 3).blk t).view.emb y) = V c main_arg5 y
    refine congrArg (V c main_arg5) (funext fun a => Fin.ext ?_)
    match a with
    | ⟨0, _⟩ =>
      show win0_3.index t (0 : Fin 1) * 128 + 1 * (y 0).val = (y 0).val
      omega
  · funext y
    show V c main_arg6 (((cfg0.win 4).blk t).view.emb y) = V c main_arg6 y
    refine congrArg (V c main_arg6) (funext fun a => Fin.ext ?_)
    match a with
    | ⟨0, _⟩ =>
      show win0_4.index t (0 : Fin 2) * 128 + 1 * (y 0).val = (y 0).val
      omega
    | ⟨1, _⟩ =>
      show win0_4.index t (1 : Fin 2) * 128 + 1 * (y 1).val = (y 1).val
      omega
  · funext y
    show V c main_arg7 (((cfg0.win 5).blk t).view.emb y) = V c main_arg7 y
    refine congrArg (V c main_arg7) (funext fun a => Fin.ext ?_)
    match a with
    | ⟨0, _⟩ =>
      show win0_5.index t (0 : Fin 1) * 128 + 1 * (y 0).val = (y 0).val
      omega
  · -- the output block spans all 128 columns
    apply Fin.ext
    show q.val = win0_6.index t (1 : Fin 2) * 128 + 1 * q.val
    omega

/-- An index of the output array lies in point `t`'s block iff each coordinate lies in the block's range on its axis. -/
theorem filter_mem_blk (t : Fin cfg0.N) (i : S640000x128.Idx) :
    i ∈ ((cfg0.win 6).blk t).view.set ↔ ∀ a : Fin 2, win0_6.index t a * S6400x128.size a ≤ (i a).val
      ∧ (i a).val < win0_6.index t a * S6400x128.size a + S6400x128.size a := by
  show i ∈ ((View.whole main_v5).slice (win0_6.rect t)).set ↔ _
  rw [View.set_slice_whole, Rect.mem_set_unit]
  exact Iff.rfl

/-- The hundred blocks tile the rows: row `e` lies in the block of point `e / 6400`. -/
theorem filter_cover (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  have hN : grid0.N = 100 := N_0
  have ht : (i 0).val / 6400 < cfg0.N := by show (i 0).val / 6400 < grid0.N; omega
  obtain ⟨-, -, -, -, -, -, -, -, -, -, e60, e61⟩ := filter_index ⟨(i 0).val / 6400, ht⟩
  refine ⟨⟨(i 0).val / 6400, ht⟩, flush0_6 _, ?_⟩
  rw [filter_mem_blk]
  intro a
  match a with
  | ⟨0, _⟩ =>
    show win0_6.index ⟨(i 0).val / 6400, ht⟩ (0 : Fin 2) * 6400 ≤ (i 0).val
      ∧ (i 0).val < win0_6.index ⟨(i 0).val / 6400, ht⟩ (0 : Fin 2) * 6400 + 6400
    rw [e60]; show (i 0).val / 6400 * 6400 ≤ (i 0).val ∧ (i 0).val < (i 0).val / 6400 * 6400 + 6400
    omega
  | ⟨1, _⟩ =>
    show win0_6.index ⟨(i 0).val / 6400, ht⟩ (1 : Fin 2) * 128 ≤ (i 1).val
      ∧ (i 1).val < win0_6.index ⟨(i 0).val / 6400, ht⟩ (1 : Fin 2) * 128 + 128
    rw [e61]; omega

/-- After the region its output array is the filter array of the radial features, the edge lengths, the weights and the
    biases as the region found them. -/
theorem filter_final (c : Dev nD) :
    (dat0 V c).arrAt 6 cfg0.N = filterArr (E := 640000) (K := 50) (H := 128) (N := 128) (V c main_arg3) (lengths V c)
      (V c main_arg4) (V c main_arg5) (V c main_arg6) (V c main_arg7) :=
  (dat0 V c).arrAt_eq_of_cover 6 _ (fun t _ => filter_flushed V c t) filter_cover

end Cert.KernelIdeal.KValue

end
-- ==== Proof.Aggregate.lean ====
/-
  The irregular piece of the layer, named once and never opened.

  Each edge reads the projected features of its source node (a row gather through the first row of the edge list, a
  negative node number counted from the end), multiplies them entry by entry by the edge's filter row, and the products
  are summed into the row of the edge's destination node (a scatter-add into zeros through the second row of the edge
  list). Both programs apply exactly this sequence of operations to a projected-feature array and a filter array; the
  certificate proves those two arrays equal on the two sides and carries this sequence as one function of them.
-/
import proofs.«128581_j64819646431979_1_alg».proof.Proof.Gen.ReferenceIdeal.Read

noncomputable section

namespace Cert.ReferenceIdeal.RefValue

open Cert.ReferenceIdeal Cert.ReferenceIdeal.Gen Cert.ReferenceIdeal.Read Idealize.ShloMosaic

/-- The aggregated messages: `agg[n, :] = ∑ over edges e with destination n of h[source e, :] · wf[e, :]`, as the
    reference's own operations on a projected-feature array `h`, a filter array `wf` and the edge list. -/
def aggregate (h : FVec Ideal S40000x128 .f32) (wf : FVec Ideal S640000x128 .f32) (edges : IVec S2x640000 32) :
    FVec Ideal S40000x128 .f32 :=
  Host.scatterAdd (F := Ideal) scatter_S40000x128_S640000x1_S640000x128_1_0_0_1 (val_main_v32 (F := Ideal)) (val_main_v33 (F := Ideal) edges)
    (mulf (F := Ideal) (Host.gather gather_S40000x128_S640000x1_S640000x128_1_0_n_n_0_1_1128 h (val_main_v29 (F := Ideal) edges)) wf)

/-- The reference's aggregated messages are that function of its projected features and its filter array. -/
theorem agg_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000x50, .f32⟩ : BufTy).Contents (Elt Ideal))
    (x4 : (⟨S50x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) :
    val_main_v34 (F := Ideal) x0 x1 x2 x3 x4 x5 x6 x7 x8
      = aggregate (val_main_v23 (F := Ideal) x0 x8) (val_main_v22 (F := Ideal) x2 x3 x4 x5 x6 x7) x1 := rfl

end Cert.ReferenceIdeal.RefValue

end
-- ==== Proof.Bridge.lean ====
/-
  The idealized kernel's result as one function of the launch arrays.

  Reading the boundaries in order: the filter-network region leaves the filter array of the radial features, the edge
  lengths and the filter network's weights and biases as launched; the projection region leaves the node features
  times its weights; the host operations between the regions are, operation for operation, the reference's own
  gather, product and scatter-add, applied to those two arrays and the edge list (the kernel stores both arrays in a
  narrower float format and widens them again, which changes nothing on the extended reals); the tail region leaves
  the two-layer network on the aggregated messages. Composed, the result buffer ends holding
      tail(aggregate(x · W_in, filter(edge_attr, edge_weight), edge_index)),
  every weight and bias being the launch contents of its argument array.
-/
import proofs.«128581_j64819646431979_1_alg».proof.Proof.Run
import proofs.«128581_j64819646431979_1_alg».proof.Proof.Boundary
import proofs.«128581_j64819646431979_1_alg».proof.Proof.Proj
import proofs.«128581_j64819646431979_1_alg».proof.Proof.Tail
import proofs.«128581_j64819646431979_1_alg».proof.Proof.Filter
import proofs.«128581_j64819646431979_1_alg».proof.Proof.Aggregate

noncomputable section

namespace Cert.KernelIdeal.KValue

open Cert.KernelIdeal Cert.KernelIdeal.Gen Idealize.ShloMosaic Idealize.ShloMosaic.TcCoe Idealize.SL.Sem
open Idealize.ShloMosaic.ValueIdx Cert.Conv
open Idealize.ShloMosaic.Pipeline (Dat)

open Idealize.ShloMosaic.StableHlo Cert.ReferenceIdeal.RefValue

variable (m : (ℓ : Loc nD τ sig) → Buf (Elt Ideal) ℓ) (ρ : Dev nD → PrngReg)

/-- The aggregated messages the tail region finds are the reference's gather, product and scatter-add of the two
    regions' output arrays and the edge list. -/
theorem messages (c : Dev nD) : V4 m ρ c main_v19
    = aggregate (W3 m ρ c (Proc.devRef .tc main_v6)) (W3 m ρ c (Proc.devRef .tc main_v5)) (m ((c : Thread nD τ).loc main_arg1)) := by
  show StableHlo.after hostOps2 (W3 m ρ c) (Proc.devRef .tc main_v19) = _
  after_results
  rw [W3_v1, W3_v3]
  rfl

/-- The lengths the filter-network region finds, one per edge, are the launched edge lengths. -/
theorem lengths_eq (c : Dev nD) : lengths (V1 m ρ) c = m ((c : Thread nD τ).loc main_arg2) := by
  funext e
  show V1 m ρ c main_v4 (ix2 (e 0) (0 : Fin 1)) = m ((c : Thread nD τ).loc main_arg2) e
  rw [V1_v4_apply m ρ c (e 0)]
  exact congrArg _ (eq_ix1 e).symm

/-- The layer's result as a function of the launch arrays: the tail of the aggregated messages of the projected node
    features and the filter array. -/
def result (c : Dev nD) : Buf (Elt Ideal) ((c.tc : Thread nD τ).loc main_v20) :=
  tailArr (M := 40000) (K := 128) (H := 128) (N := 128)
    (aggregate
      (projArr (M := 40000) (K := 128) (N := 128) (m ((c : Thread nD τ).loc main_arg0)) (m ((c : Thread nD τ).loc main_arg8)))
      (filterArr (E := 640000) (K := 50) (H := 128) (N := 128) (m ((c : Thread nD τ).loc main_arg3)) (m ((c : Thread nD τ).loc main_arg2))
        (m ((c : Thread nD τ).loc main_arg4)) (m ((c : Thread nD τ).loc main_arg5)) (m ((c : Thread nD τ).loc main_arg6))
        (m ((c : Thread nD τ).loc main_arg7)))
      (m ((c : Thread nD τ).loc main_arg1)))
    (m ((c : Thread nD τ).loc main_arg9)) (m ((c : Thread nD τ).loc main_arg10)) (m ((c : Thread nD τ).loc main_arg11))
    (m ((c : Thread nD τ).loc main_arg12))

/-- The last boundary's contents at the result buffer are that function of the launch arrays. -/
theorem value (c : Dev nD) : W5 m ρ c (Proc.devRef .tc main_v20) = result m c := by
  rw [W5_v20, tail_final (V4 m ρ) c, V4_arg9, V4_arg10, V4_arg11, V4_arg12, messages, W3_v6, proj_final (V2 m ρ) c, V2_arg0,
    V2_arg8, W3_v5, filter_final (V1 m ρ) c, V1_arg3, V1_arg4, V1_arg5, V1_arg6, V1_arg7, lengths_eq]
  rfl

/-- Every weakly fair execution of the idealized kernel terminates with the result buffer at `result` of the launch
    arrays and every argument array as launched. -/
theorem run_value : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (value m ρ c), (h c).2⟩) (run_named m ρ)

end Cert.KernelIdeal.KValue

end
-- ==== Proof.RefValue.lean ====
/-
  The reference computes the three dense pieces of the layer as the row-wise functions of the specification.

  The reference is a sequence of whole-array operations: a matrix product is a contraction over the shared axis, a bias
  is a vector repeated along the rows, tanh and cosine act entry by entry, and the cutoff is a column repeated along the
  filter axis. Read at one entry `[r, c]`, each of these depends only on row `r` of the array it acts on:
    * a product `a · w` at `[r, c]` is `∑ k, a[r, k] · w[k, c]`;
    * a repeated bias at `[r, c]` is `b[c]`, and a repeated column at `[r, c]` is its entry `r`;
    * an entrywise operation at `[r, c]` reads its operand at `[r, c]`.
  Composing these readings, the filter array at `[e, c]` is
      (∑ h, tanh(∑ k, ea[e, k] · w₁[k, h] + b₁[h]) · w₂[h, c] + b₂[c]) · (½ · (cos(len[e] · κ) + 1)),
  the projected features at `[n, c]` are `∑ k, x[n, k] · w[k, c]`, and the output at `[n, c]` is
      ∑ h, tanh(∑ k, agg[n, k] · w₁[k, h] + b₁[h]) · w₂[h, c] + b₂[c].
  These are the specification's `filterRow`, `prodRow` and `mlpRow` on row `e` (resp. `n`), with the factors and the
  summands in the same order. What remains is bookkeeping of indices: each composed index map of the reference is the
  pair of coordinates the specification writes, checked one coordinate at a time. No law of arithmetic is used; no sum
  is reordered and no product is commuted.

  The irregular piece in the middle (gather along the sources, entrywise product with the filters, scatter-add into the
  destinations) is carried as the one function `aggregate` of the projected features, the filter array and the edge
  list, and is never opened. The last theorem states the whole result as the tail of `aggregate` of the two arrays.
-/
import proofs.«128581_j64819646431979_1_alg».proof.Proof.Gen.ReferenceIdeal.Read
import proofs.«128581_j64819646431979_1_alg».proof.Proof.Spec
import proofs.«128581_j64819646431979_1_alg».proof.Proof.Aggregate

noncomputable section

namespace Cert.ReferenceIdeal.RefValue

open Cert.ReferenceIdeal Cert.ReferenceIdeal.Read Idealize.ShloMosaic Idealize.ShloMosaic.ValueIdx Cert.Conv

/-- The projected node features. The reference's product of the node features `x` with the weight matrix `w`, read at
    `[n, c]`, is `∑ k, x[n, k] · w[k, c]`: the left factor is read at (row of the entry, `k`) and the right at (`k`, column
    of the entry). That is `prodRow` on row `n` of `x`. -/
theorem proj_eq (x0 : (⟨S40000x128, .f32⟩ : BufTy).Contents (Elt Ideal)) (x8 : (⟨S128x128, .f32⟩ : BufTy).Contents (Elt Ideal)) :
    val_main_v23 (F := Ideal) x0 x8 = projArr x0 x8 := by
  funext i
  rw [val_main_v23_apply]
  unfold projArr prodRow
  refine Finset.sum_congr rfl fun k _ => ?_
  have el : lidx_main_v23 i k = ix2 (i 0) k :=
    funext fun a => Fin.ext (by match a with | ⟨0, _⟩ => rfl | ⟨1, _⟩ => rfl)
  have er : ridx_main_v23 i k = ix2 k (i 1) :=
    funext fun a => Fin.ext (by match a with | ⟨0, _⟩ => rfl | ⟨1, _⟩ => rfl)
  rw [el, er]
  rfl

/-- The filter array. Read at `[e, c]`, the reference's value is a product of two factors.
    The first is the second dense layer, `∑ h, t[e, h] · w₂[h, c] + b₂[c]`, whose input `t[e, h]` is the tanh of the first
    dense layer `∑ k, ea[e, k] · w₁[k, h] + b₁[h]`; each bias is a vector repeated along the rows, so at `[e, h]` it is
    `b₁[h]` and at `[e, c]` it is `b₂[c]`. The second factor is the cutoff column repeated along the filter axis, so at
    `[e, c]` it is `½ · (cos(len[e] · κ) + 1)`, the three constants being the values of their single-precision words.
    Both factors depend on the edge `e` alone through row `e` of `ea` and the length `len[e]`: this is `filterRow`. -/
theorem filter_eq (x2 : (⟨S640000, .f32⟩ : BufTy).Contents (Elt Ideal)) (x3 : (⟨S640000x50, .f32⟩ : BufTy).Contents (Elt Ideal))
    (x4 : (⟨S50x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v22 (F := Ideal) x2 x3 x4 x5 x6 x7 = filterArr x3 x2 x4 x5 x6 x7 := by
  funext i
  rw [val_main_v22_apply, val_main_v19_apply, val_main_v16_apply, val_main_v18_apply, val_main_v17_apply,
    val_main_v21_apply, val_main_v20_apply, val_main_v10_apply, val_main_v9_apply, val_main_cst_1_apply,
    val_main_v8_apply, val_main_v6_apply, val_main_v5_apply, val_main_v4_apply, val_main_cst_apply,
    val_main_v7_apply, val_main_cst_0_apply]
  -- a bias repeated along the rows is read at the entry's column; the cutoff column at the entry's row
  have e7 : idx_main_v17 (idx_main_v18 i) = ix1 (i 1) := funext fun a => Fin.ext (by match a with | ⟨0, _⟩ => rfl)
  have e2 : idx_main_v20 (idx_main_v21 i) = ix1 (i 0) := funext fun a => Fin.ext (by match a with | ⟨0, _⟩ => rfl)
  -- the hidden layer at `[e, h]`, for each `h` of the outer contraction
  have hsum : ∑ k : Fin 128, val_main_v15 (F := Ideal) x3 x4 x5 (lidx_main_v16 i k) * x6 (ridx_main_v16 i k)
      = ∑ k : Fin 128, Ideal.tanh ((∑ k' : Fin 50, x3 (ix2 (i 0) k') * x4 (ix2 k' k)) + x5 (ix1 k)) * x6 (ix2 k (i 1)) := by
    refine Finset.sum_congr rfl fun k _ => ?_
    rw [val_main_v15_apply, val_main_v14_apply, val_main_v11_apply, val_main_v13_apply, val_main_v12_apply]
    have e5 : idx_main_v12 (idx_main_v13 (lidx_main_v16 i k)) = ix1 k := funext fun a => Fin.ext (by match a with | ⟨0, _⟩ => rfl)
    have e6 : ridx_main_v16 i k = ix2 k (i 1) := funext fun a => Fin.ext (by match a with | ⟨0, _⟩ => rfl | ⟨1, _⟩ => rfl)
    -- the first product at `[e, h]`: left factor at `[e, k']`, right factor at `[k', h]`
    have hin : ∑ k' : Fin 50, x3 (lidx_main_v11 (lidx_main_v16 i k) k') * x4 (ridx_main_v11 (lidx_main_v16 i k) k')
        = ∑ k' : Fin 50, x3 (ix2 (i 0) k') * x4 (ix2 k' k) := by
      refine Finset.sum_congr rfl fun k' _ => ?_
      have e3 : lidx_main_v11 (lidx_main_v16 i k) k' = ix2 (i 0) k' := funext fun a => Fin.ext (by match a with | ⟨0, _⟩ => rfl | ⟨1, _⟩ => rfl)
      have e4 : ridx_main_v11 (lidx_main_v16 i k) k' = ix2 k' k := funext fun a => Fin.ext (by match a with | ⟨0, _⟩ => rfl | ⟨1, _⟩ => rfl)
      rw [e3, e4]
      rfl
    rw [hin, e5, e6]
    rfl
  rw [hsum, e7, e2]
  unfold filterArr filterRow mlpRow denseRow prodRow cutoff
  rfl

/-- The tail. Read at `[n, c]`, the reference's result is `∑ h, t[n, h] · w₂[h, c] + b₂[c]` with
    `t[n, h] = tanh(∑ k, agg[n, k] · w₁[k, h] + b₁[h])`, where `agg` is the array of aggregated messages, kept as one
    unopened array: only its row `n` is read. That is `mlpRow` on row `n` of `agg`. -/
theorem tail_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000x50, .f32⟩ : BufTy).Contents (Elt Ideal))
    (x4 : (⟨S50x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    val_main_v43 (F := Ideal) x0 x1 x2 x3 x4 x5 x6 x7 x8 x9 x10 x11 x12
      = tailArr (val_main_v34 (F := Ideal) x0 x1 x2 x3 x4 x5 x6 x7 x8) x9 x10 x11 x12 := by
  funext i
  rw [val_main_v43_apply, val_main_v40_apply, val_main_v42_apply, val_main_v41_apply]
  -- the second bias, repeated along the rows, is read at the entry's column
  have e12 : idx_main_v41 (idx_main_v42 i) = ix1 (i 1) := funext fun a => Fin.ext (by match a with | ⟨0, _⟩ => rfl)
  -- the hidden layer at `[n, h]`, for each `h` of the outer contraction
  have hsum : ∑ k : Fin 128, val_main_v39 (F := Ideal) x0 x1 x2 x3 x4 x5 x6 x7 x8 x9 x10 (lidx_main_v40 i k) * x11 (ridx_main_v40 i k)
      = ∑ k : Fin 128, Ideal.tanh ((∑ k' : Fin 128, (val_main_v34 (F := Ideal) x0 x1 x2 x3 x4 x5 x6 x7 x8) (ix2 (i 0) k') * x9 (ix2 k' k)) + x10 (ix1 k)) * x11 (ix2 k (i 1)) := by
    refine Finset.sum_congr rfl fun k _ => ?_
    rw [val_main_v39_apply, val_main_v38_apply, val_main_v35_apply, val_main_v37_apply, val_main_v36_apply]
    generalize val_main_v34 (F := Ideal) x0 x1 x2 x3 x4 x5 x6 x7 x8 = A
    have e10 : idx_main_v36 (idx_main_v37 (lidx_main_v40 i k)) = ix1 k := funext fun a => Fin.ext (by match a with | ⟨0, _⟩ => rfl)
    have e11 : ridx_main_v40 i k = ix2 k (i 1) := funext fun a => Fin.ext (by match a with | ⟨0, _⟩ => rfl | ⟨1, _⟩ => rfl)
    -- the first product at `[n, h]`: the messages at `[n, k']`, the weights at `[k', h]`
    have hin : ∑ k' : Fin 128, A (lidx_main_v35 (lidx_main_v40 i k) k') * x9 (ridx_main_v35 (lidx_main_v40 i k) k')
        = ∑ k' : Fin 128, A (ix2 (i 0) k') * x9 (ix2 k' k) := by
      refine Finset.sum_congr rfl fun k' _ => ?_
      have e3 : lidx_main_v35 (lidx_main_v40 i k) k' = ix2 (i 0) k' := funext fun a => Fin.ext (by match a with | ⟨0, _⟩ => rfl | ⟨1, _⟩ => rfl)
      have e4 : ridx_main_v35 (lidx_main_v40 i k) k' = ix2 k' k := funext fun a => Fin.ext (by match a with | ⟨0, _⟩ => rfl | ⟨1, _⟩ => rfl)
      rw [e3, e4]
      rfl
    rw [hin, e10, e11]
    rfl
  rw [hsum, e12]
  generalize val_main_v34 (F := Ideal) x0 x1 x2 x3 x4 x5 x6 x7 x8 = A
  unfold tailArr mlpRow denseRow prodRow
  rfl

/-- The whole result: the tail of the aggregated messages, which are `aggregate` of the projected features, the filter
    array and the edge list; the two arrays are the row-wise functions by the theorems above. -/
theorem result_eq (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000x50, .f32⟩ : BufTy).Contents (Elt Ideal))
    (x4 : (⟨S50x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    val_main_v43 (F := Ideal) x0 x1 x2 x3 x4 x5 x6 x7 x8 x9 x10 x11 x12
      = tailArr (aggregate (projArr x0 x8) (filterArr x3 x2 x4 x5 x6 x7) x1) x9 x10 x11 x12 := by
  rw [tail_eq, agg_eq, filter_eq, proj_eq]

end Cert.ReferenceIdeal.RefValue

end
-- ==== Proof.lean ====
/-
  A continuous-filter convolution layer computed by three tiled kernels against its plain array program.

  The kernel program runs a filter network over the edges in blocks of 6400 rows, a node projection in blocks of 4000
  rows, gathers the projected rows at the edges' source nodes, multiplies them by the filter rows and sums the products
  at the destination nodes on the host, and runs a two-layer tail over the nodes in blocks of 4000 rows. The reference
  computes the same layer as whole-array operations. On the extended reals every dense piece is a function of one
  row of its input, so the row blocks are invisible; a matrix product into a zero accumulator and the host's
  contraction are the same plain sum in the same order; a change of float format is the identity; the bias and cutoff
  broadcasts read the same entries; and the gather, product and scatter-add are the same operations on both sides. No
  law of arithmetic beyond these readings is used, so the precondition is never opened: the two results are the same
  function of the argument arrays,
      tail(aggregate(x · W_in, filter(edge_attr, edge_weight), edge_index)).

  The three frames are the generated frame runs (the reference's is its generated run with the result dropped), and
  the idealization rewrote nothing, so there is nothing to preserve.
-/
import proofs.«128581_j64819646431979_1_alg».proof.Defs
import proofs.«128581_j64819646431979_1_alg».proof.Proof.Gen.Kernel
import proofs.«128581_j64819646431979_1_alg».proof.Proof.Gen.Kernel.Frame
import proofs.«128581_j64819646431979_1_alg».proof.Proof.Gen.KernelIdeal
import proofs.«128581_j64819646431979_1_alg».proof.Proof.Gen.KernelIdeal.Frame
import proofs.«128581_j64819646431979_1_alg».proof.Proof.Gen.ReferenceIdeal
import proofs.«128581_j64819646431979_1_alg».proof.Proof.Gen.ReferenceIdeal.Run
import proofs.«128581_j64819646431979_1_alg».proof.Proof.Gen.ReferenceIdeal.Read
import proofs.«128581_j64819646431979_1_alg».proof.Proof.Gen.Pre_finite_inputs
import proofs.«128581_j64819646431979_1_alg».proof.Proof.Bridge
import proofs.«128581_j64819646431979_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the argument arrays, both idealized programs end with the result buffer at the same
    function of those arrays: the kernel's by reading its boundaries region by region, the reference's by reading its
    operations at an entry. -/
theorem algebraic : Cert.algebraic_KernelIdeal_ReferenceIdeal := by
  intro m ρ m' ρ' _ hagree
  refine ⟨fun c => Cert.KernelIdeal.KValue.result m c, Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v43_eq, Cert.ReferenceIdeal.RefValue.result_eq, h0, h1, h2, h3, h4, h5, h6, h7, h8, h9,
    h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
